-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : FVec F S512x128 .f32) (main_arg2 : FVec F S128 .f32) (main_arg3 : FVec F S128x40 .f32) (main_arg4 : FVec F S40 .f32) (main_arg5 : IVec S800000 32) (main_arg6 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_v13 main_v16
-- ==== Kernel.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 84
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S512x128, .bf16⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S128x40, .bf16⟩
  | .hbm, ⟨65, _⟩ => ⟨S50000x40, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x40, .f32⟩
  | .hbm, ⟨75, _⟩ => ⟨S_, .f32⟩
  | .hbm, ⟨76, _⟩ => ⟨S50000x40, .f32⟩
  | .hbm, ⟨77, _⟩ => ⟨S800000x1, .i32⟩
  | .hbm, ⟨78, _⟩ => ⟨S50000x40, .f32⟩
  | .hbm, ⟨79, _⟩ => ⟨S50000x40, .f32⟩
  | .hbm, ⟨80, _⟩ => ⟨S50000x40, .f32⟩
  | .hbm, ⟨81, _⟩ => ⟨S1x40, .f32⟩
  | .hbm, ⟨82, _⟩ => ⟨S50000x40, .f32⟩
  | .hbm, ⟨83, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S128x40, .bf16⟩
  | .local _ .vmem, ⟨12, _⟩ => ⟨S2000x40, .f32⟩
  | .local _ .vmem, ⟨13, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  broadcasts_S2000x1_S2000x128 : S2000x1.Broadcasts S2000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .bf16 = 32 ∨ (Rect.block (s := S128x40) S128x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 88
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x512, .f32⟩
  | .hbm, ⟨41, _⟩ => ⟨S50000x512, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x40, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x40, .f32⟩
  | .hbm, ⟨78, _⟩ => ⟨S_, .f32⟩
  | .hbm, ⟨79, _⟩ => ⟨S50000x40, .f32⟩
  | .hbm, ⟨80, _⟩ => ⟨S800000x1, .i32⟩
  | .hbm, ⟨81, _⟩ => ⟨S50000x40, .f32⟩
  | .hbm, ⟨82, _⟩ => ⟨S50000x1, .f32⟩
  | .hbm, ⟨83, _⟩ => ⟨S50000x40, .f32⟩
  | .hbm, ⟨84, _⟩ => ⟨S50000x40, .f32⟩
  | .hbm, ⟨85, _⟩ => ⟨S1x40, .f32⟩
  | .hbm, ⟨86, _⟩ => ⟨S50000x40, .f32⟩
  | .hbm, ⟨87, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_cst_8 : Ref sig .tc := ⟨.hbm, 35, rfl⟩
abbrev main_call1_v0 : Ref sig .tc := ⟨.hbm, 36, rfl⟩
abbrev main_call1_v1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call2_cst : Ref sig .tc := ⟨.hbm, 62, rfl⟩
abbrev main_call2_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.NamedRun.lean ====
/-
  The run of the idealized program with its result named.

  The program is a line of host operations around two launches of the dense kernel.  Its buffer contents at each
  boundary between a host stretch and a launch form a chain: the contents at launch, then what each stretch of host
  operations computes from the contents before it, then at each launch's exit the launch's arrays at what its
  write-backs leave and every other buffer untouched.  Every weakly fair execution terminates without a fault, and
  in its final state every buffer that is not scoped to a launch holds the last link of that chain.  The frame
  statement keeps of this only that the argument arrays end as launched; here the same run is stated with the
  result buffer also read off the last link, so that the value the program returns is a term one can compute with.
-/
import proofs.«148766_j266287972964_1_alg».proof.Proof.Gen.KernelIdeal.Frame

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting; in the
    final state the result buffer holds the last boundary's contents at that buffer, and the argument arrays are as
    launched. -/
theorem run_named : θ_run defs (onTc (τ := τ) (main (F := F))) ⟨m, fun _ => 0, ρ⟩ (fun r => ∀ c : Dev nD,
      r.2.mem ((c.tc : Thread nD τ).loc main_v54) = W11 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v54 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Conv

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«148766_j266287972964_1_alg».proof.Proof.LibMatmulPlain
import proofs.«148766_j266287972964_1_alg».proof.Proof.LibDotsNT
import proofs.«148766_j266287972964_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibScaledDense.lean ====
/-
  A dense layer whose input rows are scaled before the product, read at an entry of its result, on the extended reals.

  For a feature array X : [a, k], a column of row scales S : [a, 1] and a weight matrix W : [k, n] the layer is
  (X * S) W, the scale of row r applied to every entry of that row before the product is taken:

      entry (r, q)  =  sum over c of (X(r, c) * S(r, 0)) * W(c, q).

  The tile of a grid point spells it with the column spread over the columns of the block, an elementwise product, and
  the matrix unit's product of the operands in bfloat16 (a change of format, which does nothing to an extended real)
  into a zero accumulator; the host spells it with a broadcast_in_dim of the column, an elementwise product and a
  dot_general.  Both are the function `spec` below of the three arrays, as whole arrays.  An entry of `spec` depends
  only on one row of X, one entry of S and one column of W, so it can be read off any arrays that agree there
  (`spec_congr`): that is what makes a block of rows of the layer the layer of the block of rows.
-/
import Idealize.ShloMosaic.Lib.Pipeline.Value
import Idealize.ShloMosaic.Lib.ValueIdx
import Idealize.ShloMosaic.Lib.ValueLayout
import Idealize.ShloMosaic.PureOps.Ideal.Laws
import proofs.«148766_j266287972964_1_alg».proof.Proof.LibDenseLayer

noncomputable section

open scoped BigOperators

namespace Cert.ScaledDense

open Idealize.ShloMosaic Idealize.ShloMosaic.ValueIdx

variable {a k n : ℕ}

/-- X with row r multiplied by the scale S(r, 0). -/
def scaled (X : (⟨2, ![a, k]⟩ : Shape).Idx → EReal) (S : (⟨2, ![a, 1]⟩ : Shape).Idx → EReal) :
    (⟨2, ![a, k]⟩ : Shape).Idx → EReal :=
  fun i => X i * S (ix2 (i 0) (0 : Fin 1))

/-- The layer: the product of the row-scaled X with W. -/
def spec (X : (⟨2, ![a, k]⟩ : Shape).Idx → EReal) (S : (⟨2, ![a, 1]⟩ : Shape).Idx → EReal)
    (W : (⟨2, ![k, n]⟩ : Shape).Idx → EReal) : (⟨2, ![a, n]⟩ : Shape).Idx → EReal :=
  Cert.Dense.prod (scaled X S) W

/-- The layer at entry (r, q): the sum over c of (X(r, c) * S(r, 0)) * W(c, q). -/
theorem spec_ix2 (X : (⟨2, ![a, k]⟩ : Shape).Idx → EReal) (S : (⟨2, ![a, 1]⟩ : Shape).Idx → EReal)
    (W : (⟨2, ![k, n]⟩ : Shape).Idx → EReal) (r : Fin a) (q : Fin n) :
    spec X S W (ix2 r q) = ∑ c : Fin k, (X (ix2 r c) * S (ix2 r (0 : Fin 1))) * W (ix2 c q) := rfl

/-- An entry of the layer depends only on row r of X, on S(r, 0) and on column q of W: arrays of any heights and
    widths that agree there give the same entry. -/
theorem spec_congr {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (r : Fin a) (q : Fin n) (r' : Fin a') (q' : Fin n')
    (hX : ∀ c : Fin k, X (ix2 r c) = X' (ix2 r' c)) (hS : S (ix2 r (0 : Fin 1)) = S' (ix2 r' (0 : Fin 1)))
    (hW : ∀ c : Fin k, W (ix2 c q) = W' (ix2 c q')) :
    spec X S W (ix2 r q) = spec X' S' W' (ix2 r' q') := by
  rw [spec_ix2, spec_ix2]
  exact Finset.sum_congr rfl fun c _ => by rw [hX c, hS, hW c]

/-- The same at any two indices: the layer at `j` over one triple of arrays is the layer at `i` over another when the
    two triples agree on the row, the scale and the column those entries read. -/
theorem spec_congr_at {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (j : (⟨2, ![a, n]⟩ : Shape).Idx) (i : (⟨2, ![a', n']⟩ : Shape).Idx)
    (hX : ∀ c : Fin k, X (ix2 (j 0) c) = X' (ix2 (i 0) c))
    (hS : S (ix2 (j 0) (0 : Fin 1)) = S' (ix2 (i 0) (0 : Fin 1)))
    (hW : ∀ c : Fin k, W (ix2 c (j 1)) = W' (ix2 c (i 1))) :
    spec X S W j = spec X' S' W' i := by
  show ∑ c : Fin k, (X (ix2 (j 0) c) * S (ix2 (j 0) (0 : Fin 1))) * W (ix2 c (j 1))
    = ∑ c : Fin k, (X' (ix2 (i 0) c) * S' (ix2 (i 0) (0 : Fin 1))) * W' (ix2 c (i 1))
  exact Finset.sum_congr rfl fun c _ => by rw [hX c, hS, hW c]

/-- The tile's scaling: the column cast to itself, spread over the columns of the block and multiplied in. -/
theorem tile_scaled (x0 : FVec Ideal ⟨2, ![a, k]⟩ .f32) (x1 : FVec Ideal ⟨2, ![a, 1]⟩ .f32)
    (hc : (⟨2, ![a, 1]⟩ : Shape).ShapeCasts ⟨2, ![a, 1]⟩) (hb : (⟨2, ![a, 1]⟩ : Shape).Broadcasts ⟨2, ![a, k]⟩) :
    mulf x0 (broadcastTo ⟨2, ![a, k]⟩ (shapeCast ⟨2, ![a, 1]⟩ x1 hc) hb) = scaled x0 x1 := by
  funext j
  obtain ⟨r, c, rfl⟩ : ∃ (r : Fin a) (c : Fin k), j = ix2 r c := ⟨j 0, j 1, eq_ix2 j⟩
  rw [mulf_apply, shapeCast_self, Cert.LibKeepdims.broadcastTo_a1_ab_apply]
  rfl

/-- The host's scaling: the column laid over the array by broadcast_in_dim along both axes and multiplied in. -/
theorem host_scaled (X : FVec Ideal ⟨2, ![a, k]⟩ .f32) (S : FVec Ideal ⟨2, ![a, 1]⟩ .f32)
    (hS : (⟨2, ![a, 1]⟩ : Shape).BroadcastsInDim ⟨2, ![a, k]⟩ ![0, 1]) :
    mulf X (broadcastInDim ⟨2, ![a, k]⟩ ![0, 1] hS S) = scaled X S := by
  funext j
  obtain ⟨r, c, rfl⟩ : ∃ (r : Fin a) (c : Fin k), j = ix2 r c := ⟨j 0, j 1, eq_ix2 j⟩
  rw [mulf_apply, Cert.Dense.bcast_col_apply]
  rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The tile's spelling is the layer: the scaled block in bfloat16 times the weights (in any float format, cast to
    their own shape) into a zero accumulator. -/
theorem tile_eq_spec {φ : FTy} (x0 : FVec Ideal ⟨2, ![a, k]⟩ .f32) (x1 : FVec Ideal ⟨2, ![a, 1]⟩ .f32)
    (x2 : FVec Ideal ⟨2, ![k, n]⟩ φ)
    (hc : (⟨2, ![a, 1]⟩ : Shape).ShapeCasts ⟨2, ![a, 1]⟩) (hb : (⟨2, ![a, 1]⟩ : Shape).Broadcasts ⟨2, ![a, k]⟩)
    (hw : (⟨2, ![k, n]⟩ : Shape).ShapeCasts ⟨2, ![k, n]⟩) (ht : FTy.bf16.bits < FTy.f32.bits) :
    matmul d none (truncf .bf16 (mulf x0 (broadcastTo ⟨2, ![a, k]⟩ (shapeCast ⟨2, ![a, 1]⟩ x1 hc) hb)) ht)
        (shapeCast ⟨2, ![k, n]⟩ x2 hw) (constant (F := Ideal) ⟨2, ![a, n]⟩ .f32 0x00000000#32)
      = spec x0 x1 x2 := by
  rw [tile_scaled, shapeCast_self]
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's spelling is the layer: the dot_general of the scaled array with the weights. -/
theorem host_eq_spec (X : FVec Ideal ⟨2, ![a, k]⟩ .f32) (S : FVec Ideal ⟨2, ![a, 1]⟩ .f32)
    (W : FVec Ideal ⟨2, ![k, n]⟩ .f32) (hS : (⟨2, ![a, 1]⟩ : Shape).BroadcastsInDim ⟨2, ![a, k]⟩ ![0, 1]) :
    Host.dotGeneral (F := Ideal) d none (mulf X (broadcastInDim ⟨2, ![a, k]⟩ ![0, 1] hS S)) W = spec X S W := by
  rw [host_scaled]
  exact Cert.Dense.dotGeneral_eq_prod d hlc hrc hln hrn hlb hrb _ W

end Products

end Cert.ScaledDense

end
-- ==== Proof.Conv.lean ====
/-
  What the two-layer graph convolution computes outside its two dense steps, as functions on the extended reals.

  The graph has 50000 nodes and 800000 edges, edge e running from node src(e) to node dst(e).  With deg the number of
  edges an index array counts at each node,

      norm(idx)(v) = deg(v) ^ (-1/2)  if deg(v) > 0,   0 otherwise,

  a layer takes node features X, scales row v by norm(src)(v), multiplies by the weights W (the dense step, not in this
  module), then aggregates along the edges — row v of the aggregate is the sum over the edges e with dst(e) = v of row
  src(e) of the product, a negative src(e) counted from the end and the row number clamped into the array — scales row
  v by norm(dst)(v) and adds the bias to every row.  Between the two layers the features pass through max(., 0).

  `mid` is everything from the first product to the second layer's input, `fin` everything after the second product,
  `normCol` the norm laid out as a column; `gcn` puts them around the two dense steps.  Both programs compute `gcn`
  of their arguments: they differ only in how the dense step is spelt, which is why nothing here is ever opened.  The
  pieces are named one host stretch at a time, so that each stretch of either program is recognised as one of them.
-/
import proofs.«148766_j266287972964_1_alg».proof.Proof.Gen.KernelIdeal
import proofs.«148766_j266287972964_1_alg».proof.Proof.LibScaledDense

noncomputable section

namespace Cert.KernelIdeal.Conv

open Cert.KernelIdeal Cert.KernelIdeal.Facts₀ Cert.KernelIdeal.Facts Idealize.ShloMosaic

/-- An array of 800000 node numbers, one per edge. -/
abbrev Edges : Type := (⟨S800000, .i32⟩ : BufTy).Contents (Elt Ideal)

/-! ## The norms -/

/-- The scalar zero. -/
def zero : FVec Ideal S_ .f32 := constant (F := Ideal) S_ .f32 0x00000000#32

/-- Zero spread over the 50000 nodes. -/
def zeros : FVec Ideal S50000 .f32 := broadcastInDim S50000 ![] bcast_S_S50000 zero

/-- Minus one half spread over the 50000 nodes. -/
def halves : FVec Ideal S50000 .f32 :=
  broadcastInDim S50000 ![] bcast_S_S50000 (constant (F := Ideal) S_ .f32 0xBF000000#32)

/-- The number of edges that `idx` counts at each node: ones scattered and added into zeros. -/
def degree (idx : Edges) : FVec Ideal S50000 .f32 :=
  Host.scatterAdd (F := Ideal) scatter_S50000_S800000x1_S800000_n_0_0_1 zeros
    (broadcastInDim S800000x1 ![0] bcast_S800000_S800000x1_0 idx)
    (broadcastInDim S800000 ![] bcast_S_S800000 (constant (F := Ideal) S_ .f32 0x3F800000#32))

/-- Where the degree is positive. -/
def positive (idx : Edges) : (⟨S50000, .i1⟩ : BufTy).Contents (Elt Ideal) := cmpf .ogt (degree idx) zeros

/-- deg ^ (-1/2). -/
def rootInv (idx : Edges) : FVec Ideal S50000 .f32 := Host.powf (degree idx) halves

/-- The choice between a value and a scalar spread over the nodes, as the outlined `where` makes it. -/
def choose (p : (⟨S50000, .i1⟩ : BufTy).Contents (Elt Ideal)) (v : FVec Ideal S50000 .f32) (z : FVec Ideal S_ .f32) :
    FVec Ideal S50000 .f32 :=
  select p v (broadcastInDim S50000 ![] bcast_S_S50000 z)

/-- deg ^ (-1/2) where the degree is positive, zero elsewhere. -/
def invSqrtDeg (idx : Edges) : FVec Ideal S50000 .f32 := choose (positive idx) (rootInv idx) zero

/-- A vector over the nodes as a column [50000, 1]. -/
def column (v : FVec Ideal S50000 .f32) : FVec Ideal S50000x1 .f32 :=
  broadcastInDim S50000x1 ![0] bcast_S50000_S50000x1_0 v

/-- The norm as a column [50000, 1]. -/
def normCol (idx : Edges) : FVec Ideal S50000x1 .f32 := column (invSqrtDeg idx)

/-! ## Along the edges -/

/-- The source node of each edge as a column of row numbers, a negative one counted from the end. -/
def srcRows (src : Edges) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The destination node of each edge as a column of row numbers. -/
def dstRows (dst : Edges) : (⟨S800000x1, .i32⟩ : BufTy).Contents (Elt Ideal) :=
  broadcastInDim S800000x1 ![0] bcast_S800000_S800000x1_0 dst

/-- The first layer after its product: aggregate along the edges, scale by a column, add the bias row. -/
def pre128 (h : FVec Ideal S50000x128 .f32) (nd : FVec Ideal S50000x1 .f32) (b1 : FVec Ideal S128 .f32) (src dst : Edges) :
    FVec Ideal S50000x128 .f32 :=
  addf
    (mulf
      (Host.scatterAdd (F := Ideal) scatter_S50000x128_S800000x1_S800000x128_1_0_0_1
        (broadcastInDim S50000x128 ![] bcast_S_S50000x128 zero)
        (dstRows dst)
        (Host.gather gather_S50000x128_S800000x1_S800000x128_1_0_n_n_0_1_1128 h (srcRows src)))
      (broadcastInDim S50000x128 ![0, 1] bcast_S50000x1_S50000x128_0_1 nd))
    (broadcastInDim S50000x128 ![0, 1] bcast_S1x128_S50000x128_0_1 (broadcastInDim S1x128 ![1] bcast_S128_S1x128_1 b1))

/-- The clamp at zero, as the outlined rectifier makes it. -/
def relu (h : FVec Ideal S50000x128 .f32) : FVec Ideal S50000x128 .f32 :=
  maximumf h (broadcastInDim S50000x128 ![] bcast_S_S50000x128 zero)

/-- The second layer after its product: aggregate along the edges, scale by a column, add the bias row. -/
def post40 (h : FVec Ideal S50000x40 .f32) (nd : FVec Ideal S50000x1 .f32) (b2 : FVec Ideal S40 .f32) (src dst : Edges) :
    FVec Ideal S50000x40 .f32 :=
  addf
    (mulf
      (Host.scatterAdd (F := Ideal) scatter_S50000x40_S800000x1_S800000x40_1_0_0_1
        (broadcastInDim S50000x40 ![] bcast_S_S50000x40 zero)
        (dstRows dst)
        (Host.gather gather_S50000x40_S800000x1_S800000x40_1_0_n_n_0_1_140 h (srcRows src)))
      (broadcastInDim S50000x40 ![0, 1] bcast_S50000x1_S50000x40_0_1 nd))
    (broadcastInDim S50000x40 ![0, 1] bcast_S1x40_S50000x40_0_1 (broadcastInDim S1x40 ![1] bcast_S40_S1x40_1 b2))

/-! ## The network -/

/-- From the first product to the second layer's input. -/
def mid (h : FVec Ideal S50000x128 .f32) (b1 : FVec Ideal S128 .f32) (src dst : Edges) : FVec Ideal S50000x128 .f32 :=
  relu (pre128 h (normCol dst) b1 src dst)

/-- After the second product. -/
def fin (h : FVec Ideal S50000x40 .f32) (b2 : FVec Ideal S40 .f32) (src dst : Edges) : FVec Ideal S50000x40 .f32 :=
  post40 h (normCol dst) b2 src dst

/-- The two-layer network: each layer's dense step (rows scaled by the source norm, times the weights) inside `mid` and
    `fin`. -/
def gcn (x : FVec Ideal S50000x512 .f32) (W1 : FVec Ideal S512x128 .f32) (b1 : FVec Ideal S128 .f32)
    (W2 : FVec Ideal S128x40 .f32) (b2 : FVec Ideal S40 .f32) (src dst : Edges) : FVec Ideal S50000x40 .f32 :=
  fin (Cert.ScaledDense.spec (mid (Cert.ScaledDense.spec x (normCol src) W1) b1 src dst) (normCol src) W2) b2 src dst

end Cert.KernelIdeal.Conv

end
-- ==== Proof.Region.lean ====
/-
  What each launch of the dense kernel leaves in its output array.

  A launch walks 25 grid points; at point t it fetches rows 2000 t … 2000 t + 1999 of the feature array and of the
  column of row scales, and the whole weight matrix, computes the dense layer of that block of rows, and writes the
  result back as rows 2000 t … 2000 t + 1999 of the output.  An entry of the dense layer depends only on its own row of
  the features and of the scales, so the block of the layer of the whole arrays IS the layer of the blocks; the 25
  blocks tile the 50000 rows; hence the output array ends as the dense layer of the whole input arrays as the launch
  found them.
-/
import proofs.«148766_j266287972964_1_alg».proof.Proof.Gen.KernelIdeal.Frame
import proofs.«148766_j266287972964_1_alg».proof.Proof.LibScaledDense

set_option maxRecDepth 16384

noncomputable section

namespace Cert.KernelIdeal.Conv

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-block access, however spelt. -/
theorem zero_offsets : (![0, 0] : Fin 2 → Nat) = fun _ => 0 := funext fun a => by fin_cases a <;> rfl

variable (V : (c : Dev nD) → (b : Ref sig .tc) → Buf (Elt Ideal) ((c : Thread nD τ).loc b))

/-! ## The first launch: [50000, 512] features, [512, 128] weights -/

/-- The body's one store, over its three loads, is the dense layer of the loaded blocks. -/
theorem out0_eq (x0 : Vec Ideal S2000x512 .f32) (x1 : Vec Ideal S2000x1 .f32) (x2 : Vec Ideal S512x128 .bf16) :
    out0_3 x0 x1 x2 = Cert.ScaledDense.spec x0 x1 x2 := by
  unfold out0_3
  rw [View.canon_unit_zero zero_offsets]
  simp only [View.ld_unit_zero (S := S2000x512) zero_offsets, View.ld_unit_zero (S := S2000x1) zero_offsets,
    View.ld_unit_zero (S := S512x128) zero_offsets]
  exact Cert.ScaledDense.tile_eq_spec dot_S2000x512_S512x128_S2000x128_1_0_0_1_n_n rfl rfl rfl rfl rfl rfl x0 x1 x2
    shapeCasts_S2000x1_S2000x1 broadcasts_S2000x1_S2000x512 shapeCasts_S512x128_S512x128 bitsLt_bf16_f32

/-- The index maps over the grid: the feature, scale and output windows move together down the rows, one block per
    point; the weights stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the dense layer of the arrays as the launch finds them. -/
theorem flushed0_eq (c : Dev nD) (t : Fin cfg0.N) :
    (dat0 V c).flushed 3 t = ((cfg0.win 3).blk t).view.read (Elt Ideal)
      (Cert.ScaledDense.spec (V c main_arg0) (V c main_v9) (V c main_v20)) := by
  show (cfg0.win 3).cut (grid0.coords t) ((dat0 V c).after 3 t) = _
  rw [after0_3, out0_eq]
  obtain ⟨e00, e01, e10, e11, e20, e21, e30, e31⟩ := idx_facts0 t
  funext j
  show Cert.ScaledDense.spec (iblk0 V c 0 t) (iblk0 V c 1 t) (iblk0 V c 2 t) j
    = Cert.ScaledDense.spec (V c main_arg0) (V c main_v9) (V c main_v20) (((cfg0.win 3).blk t).view.emb j)
  refine Cert.ScaledDense.spec_congr_at (iblk0 V c 0 t) (iblk0 V c 1 t) (iblk0 V c 2 t)
    (V c main_arg0) (V c main_v9) (V c main_v20) j (((cfg0.win 3).blk t).view.emb j) (fun k => ?_) ?_ (fun k => ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 512 + 1 * k.val = k.val; omega
  · show V c main_v9 (((cfg0.win 1).blk t).view.emb (ix2 (j 0) (0 : Fin 1))) = V c main_v9 (ix2 ((((cfg0.win 3).blk t).view.emb j) 0) (0 : Fin 1))
    refine congrArg (V c main_v9) (funext fun a => Fin.ext ?_)
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 1 + 1 * 0 = 0; omega
  · show V c main_v20 (((cfg0.win 2).blk t).view.emb (ix2 k (j 1))) = V c main_v20 (ix2 k ((((cfg0.win 3).blk t).view.emb j) 1))
    refine congrArg (V c main_v20) (funext fun a => Fin.ext ?_)
    match a with
    | ⟨0, _⟩ => show win0_2.index t (0 : Fin 2) * 512 + 1 * k.val = k.val; omega
    | ⟨1, _⟩ => show win0_2.index t (1 : Fin 2) * 128 + 1 * (j 1).val = win0_3.index t (1 : Fin 2) * 128 + 1 * (j 1).val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v21).slice (win0_3.rect t)).set ↔ _
  rw [View.set_slice_whole, Rect.mem_set_unit]
  exact Iff.rfl

/-- Row r of the output lies in the block of point r / 2000: the 25 blocks tile the 50000 rows. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hN' : grid0.N = 25 := N_0
  refine ⟨⟨(i 0).val / 2000, by omega⟩, flush0_3 _, ?_⟩
  obtain ⟨-, -, -, -, -, -, e30, e31⟩ := idx_facts0 ⟨(i 0).val / 2000, by omega⟩
  rw [mem_blk0]
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    have e : win0_3.index ⟨(i 0).val / 2000, by omega⟩ (0 : Fin 2) = (i 0).val / 2000 := e30
    omega
  | ⟨1, _⟩ =>
    show win0_3.index ⟨(i 0).val / 2000, _⟩ (1 : Fin 2) * 128 ≤ (i 1).val
      ∧ (i 1).val < win0_3.index ⟨(i 0).val / 2000, _⟩ (1 : Fin 2) * 128 + 128
    omega

/-- The first launch's output array ends as the dense layer of its three input arrays as the launch found them. -/
theorem arr0_eq (c : Dev nD) :
    (dat0 V c).arrAt 3 cfg0.N = Cert.ScaledDense.spec (V c main_arg0) (V c main_v9) (V c main_v20) :=
  (dat0 V c).arrAt_eq_of_cover 3 _ (fun t _ => flushed0_eq V c t) cover0

/-! ## The second launch: [50000, 128] features, [128, 40] weights -/

/-- The body's one store, over its three loads (the feature block first cast to its own shape), is the dense layer of the
    loaded blocks. -/
theorem out1_eq (x0 : Vec Ideal S2000x128 .f32) (x1 : Vec Ideal S2000x1 .f32) (x2 : Vec Ideal S128x40 .bf16) :
    out1_3 x0 x1 x2 = Cert.ScaledDense.spec x0 x1 x2 := by
  unfold out1_3
  rw [View.canon_unit_zero zero_offsets]
  simp only [View.ld_unit_zero (S := S2000x128) zero_offsets, View.ld_unit_zero (S := S2000x1) zero_offsets,
    View.ld_unit_zero (S := S128x40) zero_offsets]
  show matmul dot_S2000x128_S128x40_S2000x40_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (shapeCast S128x40 x2 shapeCasts_S128x40_S128x40) (constant (F := Ideal) S2000x40 .f32 0x00000000#32) = _
  rw [shapeCast_self x0]
  exact Cert.ScaledDense.tile_eq_spec dot_S2000x128_S128x40_S2000x40_1_0_0_1_n_n rfl rfl rfl rfl rfl rfl x0 x1 x2
    shapeCasts_S2000x1_S2000x1 broadcasts_S2000x1_S2000x128 shapeCasts_S128x40_S128x40 bitsLt_bf16_f32

/-- The index maps over the grid: the feature, scale and output windows move together down the rows, one block per
    point; the weights stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the dense layer of the arrays as the launch finds them. -/
theorem flushed1_eq (c : Dev nD) (t : Fin cfg1.N) :
    (dat1 V c).flushed 3 t = ((cfg1.win 3).blk t).view.read (Elt Ideal)
      (Cert.ScaledDense.spec (V c main_v37) (V c main_v9) (V c main_v38)) := by
  show (cfg1.win 3).cut (grid1.coords t) ((dat1 V c).after 3 t) = _
  rw [after1_3, out1_eq]
  obtain ⟨e00, e01, e10, e11, e20, e21, e30, e31⟩ := idx_facts1 t
  funext j
  show Cert.ScaledDense.spec (iblk1 V c 0 t) (iblk1 V c 1 t) (iblk1 V c 2 t) j
    = Cert.ScaledDense.spec (V c main_v37) (V c main_v9) (V c main_v38) (((cfg1.win 3).blk t).view.emb j)
  refine Cert.ScaledDense.spec_congr_at (iblk1 V c 0 t) (iblk1 V c 1 t) (iblk1 V c 2 t)
    (V c main_v37) (V c main_v9) (V c main_v38) j (((cfg1.win 3).blk t).view.emb j) (fun k => ?_) ?_ (fun k => ?_)
  · show V c main_v37 (((cfg1.win 0).blk t).view.emb (ix2 (j 0) k)) = V c main_v37 (ix2 ((((cfg1.win 3).blk t).view.emb j) 0) k)
    refine congrArg (V c main_v37) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  · show V c main_v9 (((cfg1.win 1).blk t).view.emb (ix2 (j 0) (0 : Fin 1))) = V c main_v9 (ix2 ((((cfg1.win 3).blk t).view.emb j) 0) (0 : Fin 1))
    refine congrArg (V c main_v9) (funext fun a => Fin.ext ?_)
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 1 + 1 * 0 = 0; omega
  · show V c main_v38 (((cfg1.win 2).blk t).view.emb (ix2 k (j 1))) = V c main_v38 (ix2 k ((((cfg1.win 3).blk t).view.emb j) 1))
    refine congrArg (V c main_v38) (funext fun a => Fin.ext ?_)
    match a with
    | ⟨0, _⟩ => show win1_2.index t (0 : Fin 2) * 128 + 1 * k.val = k.val; omega
    | ⟨1, _⟩ => show win1_2.index t (1 : Fin 2) * 40 + 1 * (j 1).val = win1_3.index t (1 : Fin 2) * 40 + 1 * (j 1).val; omega

/-- An index of the output array is in point `t`'s block iff each coordinate is in the block's range on its axis. -/
theorem mem_blk1 (t : Fin cfg1.N) (i : S50000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v39).slice (win1_3.rect t)).set ↔ _
  rw [View.set_slice_whole, Rect.mem_set_unit]
  exact Iff.rfl

/-- Row r of the output lies in the block of point r / 2000: the 25 blocks tile the 50000 rows. -/
theorem cover1 (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  have hN : cfg1.N = 25 := N_1
  have hN' : grid1.N = 25 := N_1
  refine ⟨⟨(i 0).val / 2000, by omega⟩, flush1_3 _, ?_⟩
  obtain ⟨-, -, -, -, -, -, e30, e31⟩ := idx_facts1 ⟨(i 0).val / 2000, by omega⟩
  rw [mem_blk1]
  intro a
  match a with
  | ⟨0, _⟩ =>
    show win1_3.index ⟨(i 0).val / 2000, _⟩ (0 : Fin 2) * 2000 ≤ (i 0).val
      ∧ (i 0).val < win1_3.index ⟨(i 0).val / 2000, _⟩ (0 : Fin 2) * 2000 + 2000
    have e : win1_3.index ⟨(i 0).val / 2000, by omega⟩ (0 : Fin 2) = (i 0).val / 2000 := e30
    omega
  | ⟨1, _⟩ =>
    show win1_3.index ⟨(i 0).val / 2000, _⟩ (1 : Fin 2) * 40 ≤ (i 1).val
      ∧ (i 1).val < win1_3.index ⟨(i 0).val / 2000, _⟩ (1 : Fin 2) * 40 + 40
    omega

/-- The second launch's output array ends as the dense layer of its three input arrays as the launch found them. -/
theorem arr1_eq (c : Dev nD) :
    (dat1 V c).arrAt 3 cfg1.N = Cert.ScaledDense.spec (V c main_v37) (V c main_v9) (V c main_v38) :=
  (dat1 V c).arrAt_eq_of_cover 3 _ (fun t _ => flushed1_eq V c t) cover1

end Cert.KernelIdeal.Conv

end
-- ==== Proof.KernelValue.lean ====
/-
  The value the idealized program returns.

  The run leaves in the result buffer the last link of a chain of buffer contents, one per boundary between a stretch
  of host operations and a launch (the named run).  Each stretch is a small function of the contents before it: the
  degree count with its comparison and power; the choice the outlined `where` makes; the column layout; the
  aggregation along the edges with its scale and bias; the clamp of the outlined rectifier; the weights' change of
  format.  Each launch leaves its output array at the dense layer of its input arrays and nothing else changed.
  Following the chain forward from the launch contents, boundary by boundary, the buffers the next step reads are
  `normCol` of the source and destination arrays, the first dense layer, `mid` of it, the second dense layer, and at
  the end `fin` of that: the result buffer holds `gcn` of the seven argument arrays as launched.
-/
import proofs.«148766_j266287972964_1_alg».proof.Proof.Gen.KernelIdeal.Frame
import proofs.«148766_j266287972964_1_alg».proof.Proof.Conv
import proofs.«148766_j266287972964_1_alg».proof.Proof.Region

set_option maxRecDepth 16384

noncomputable section

namespace Cert.KernelIdeal.Conv

open Cert.KernelIdeal Cert.KernelIdeal.Gen
open Idealize.ShloMosaic Idealize.ShloMosaic.TcCoe Idealize.ShloMosaic.StableHlo
open Idealize.SL Idealize.SL.Sem

/-! ## One stretch at a time, from any contents -/

section Stretches

variable (Wv : Valuation τ sig (Elt Ideal))

/-- The source degree's comparison, power and the scalar the choice falls back on. -/
theorem s0_v5 : after hostOps0 Wv (Proc.devRef .tc main_v5) = positive (Wv (Proc.devRef .tc main_arg5)) := by
  after_results_simp <;> rfl
theorem s0_v7 : after hostOps0 Wv (Proc.devRef .tc main_v7) = rootInv (Wv (Proc.devRef .tc main_arg5)) := by
  after_results_simp <;> rfl
theorem s0_cst3 : after hostOps0 Wv (Proc.devRef .tc main_cst_3) = zero := by
  after_results_simp <;> rfl
/-- The first `where`. -/
theorem s1_v8 : after hostOps0_1 Wv (Proc.devRef .tc main_v8) = choose (Wv (Proc.devRef .tc main_v5)) (Wv (Proc.devRef .tc main_v7)) (Wv (Proc.devRef .tc main_cst_3)) := by
  after_results_simp <;> rfl
/-- The source norm as a column; the destination degree's comparison, power and fallback scalar. -/
theorem s2_v9 : after hostOps0_2 Wv (Proc.devRef .tc main_v9) = column (Wv (Proc.devRef .tc main_v8)) := by
  after_results_simp <;> rfl
theorem s2_v15 : after hostOps0_2 Wv (Proc.devRef .tc main_v15) = positive (Wv (Proc.devRef .tc main_arg6)) := by
  after_results_simp <;> rfl
theorem s2_v17 : after hostOps0_2 Wv (Proc.devRef .tc main_v17) = rootInv (Wv (Proc.devRef .tc main_arg6)) := by
  after_results_simp <;> rfl
theorem s2_cst8 : after hostOps0_2 Wv (Proc.devRef .tc main_cst_8) = zero := by
  after_results_simp <;> rfl
/-- The second `where`. -/
theorem s3_v18 : after hostOps0_3 Wv (Proc.devRef .tc main_v18) = choose (Wv (Proc.devRef .tc main_v15)) (Wv (Proc.devRef .tc main_v17)) (Wv (Proc.devRef .tc main_cst_8)) := by
  after_results_simp <;> rfl
/-- The destination norm as a column; the first weights in bfloat16, the same extended reals. -/
theorem s4_v19 : after hostOps0_4 Wv (Proc.devRef .tc main_v19) = column (Wv (Proc.devRef .tc main_v18)) := by
  after_results_simp <;> rfl
theorem s4_v20 : after hostOps0_4 Wv (Proc.devRef .tc main_v20) = Wv (Proc.devRef .tc main_arg1) := by
  after_results_simp <;> rfl
/-- The first layer after its product, before the clamp. -/
theorem s5_v36 : after hostOps1 Wv (Proc.devRef .tc main_v36) = pre128 (Wv (Proc.devRef .tc main_v21)) (Wv (Proc.devRef .tc main_v19)) (Wv (Proc.devRef .tc main_arg2)) (Wv (Proc.devRef .tc main_arg5)) (Wv (Proc.devRef .tc main_arg6)) := by
  after_results_simp <;> rfl
/-- The rectifier. -/
theorem s6_v37 : after hostOps1_1 Wv (Proc.devRef .tc main_v37) = relu (Wv (Proc.devRef .tc main_v36)) := by
  after_results_simp <;> rfl
/-- The second weights in bfloat16, the same extended reals. -/
theorem s7_v38 : after hostOps1_2 Wv (Proc.devRef .tc main_v38) = Wv (Proc.devRef .tc main_arg3) := by
  after_results_simp <;> rfl
/-- The second layer after its product. -/
theorem s8_v54 : after hostOps2 Wv (Proc.devRef .tc main_v54) = post40 (Wv (Proc.devRef .tc main_v39)) (Wv (Proc.devRef .tc main_v19)) (Wv (Proc.devRef .tc main_arg4)) (Wv (Proc.devRef .tc main_arg5)) (Wv (Proc.devRef .tc main_arg6)) := by
  after_results_simp <;> rfl

end Stretches

variable (m : (ℓ : Loc nD τ sig) → Buf (Elt Ideal) ℓ) (ρ : Dev nD → PrngReg) (c : Dev nD)

/-- The network of the seven argument arrays as launched on core `c`. -/
def value : FVec Ideal S50000x40 .f32 :=
  gcn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The opening stretches: what the first launch is entered with -/

theorem W1_v5 : W1 m ρ c (Proc.devRef .tc main_v5) = positive (m ((c : Thread nD τ).loc main_arg5)) := s0_v5 (W0 m ρ c)
theorem W1_v7 : W1 m ρ c (Proc.devRef .tc main_v7) = rootInv (m ((c : Thread nD τ).loc main_arg5)) := s0_v7 (W0 m ρ c)
theorem W1_cst3 : W1 m ρ c (Proc.devRef .tc main_cst_3) = zero := s0_cst3 (W0 m ρ c)

theorem W2_v8 : W2 m ρ c (Proc.devRef .tc main_v8) = invSqrtDeg (m ((c : Thread nD τ).loc main_arg5)) :=
  (s1_v8 (W1 m ρ c)).trans (by rw [W1_v5, W1_v7, W1_cst3]; rfl)
theorem W2_arg6 : W2 m ρ c (Proc.devRef .tc main_arg6) = (m ((c : Thread nD τ).loc main_arg6)) := by
  show after hostOps0_1 (after hostOps0 (W0 m ρ c)) (Proc.devRef .tc main_arg6) = _
  after_results_simp <;> rfl

theorem W3_v9 : W3 m ρ c (Proc.devRef .tc main_v9) = normCol (m ((c : Thread nD τ).loc main_arg5)) :=
  (s2_v9 (W2 m ρ c)).trans (by rw [W2_v8]; rfl)
theorem W3_v15 : W3 m ρ c (Proc.devRef .tc main_v15) = positive (m ((c : Thread nD τ).loc main_arg6)) :=
  (s2_v15 (W2 m ρ c)).trans (by rw [W2_arg6])
theorem W3_v17 : W3 m ρ c (Proc.devRef .tc main_v17) = rootInv (m ((c : Thread nD τ).loc main_arg6)) :=
  (s2_v17 (W2 m ρ c)).trans (by rw [W2_arg6])
theorem W3_cst8 : W3 m ρ c (Proc.devRef .tc main_cst_8) = zero := s2_cst8 (W2 m ρ c)

theorem W4_v18 : W4 m ρ c (Proc.devRef .tc main_v18) = invSqrtDeg (m ((c : Thread nD τ).loc main_arg6)) :=
  (s3_v18 (W3 m ρ c)).trans (by rw [W3_v15, W3_v17, W3_cst8]; rfl)
theorem W4_arg1 : W4 m ρ c (Proc.devRef .tc main_arg1) = (m ((c : Thread nD τ).loc main_arg1)) := by
  show after hostOps0_3 (after hostOps0_2 (after hostOps0_1 (after hostOps0 (W0 m ρ c)))) (Proc.devRef .tc main_arg1) = _
  after_results_simp <;> rfl

/-- The contents at the first launch's entry, as the fold of the five opening stretches over the launch contents. -/
theorem W5_unfold : W5 m ρ c = after hostOps0_4 (after hostOps0_3 (after hostOps0_2 (after hostOps0_1 (after hostOps0
    (W0 m ρ c))))) := rfl

theorem W5_arg0 : W5 m ρ c (Proc.devRef .tc main_arg0) = (m ((c : Thread nD τ).loc main_arg0)) := by
  rw [W5_unfold]; after_results_simp <;> rfl
theorem W5_arg2 : W5 m ρ c (Proc.devRef .tc main_arg2) = (m ((c : Thread nD τ).loc main_arg2)) := by
  rw [W5_unfold]; after_results_simp <;> rfl
theorem W5_arg3 : W5 m ρ c (Proc.devRef .tc main_arg3) = (m ((c : Thread nD τ).loc main_arg3)) := by
  rw [W5_unfold]; after_results_simp <;> rfl
theorem W5_arg4 : W5 m ρ c (Proc.devRef .tc main_arg4) = (m ((c : Thread nD τ).loc main_arg4)) := by
  rw [W5_unfold]; after_results_simp <;> rfl
theorem W5_arg5 : W5 m ρ c (Proc.devRef .tc main_arg5) = (m ((c : Thread nD τ).loc main_arg5)) := by
  rw [W5_unfold]; after_results_simp <;> rfl
theorem W5_arg6 : W5 m ρ c (Proc.devRef .tc main_arg6) = (m ((c : Thread nD τ).loc main_arg6)) := by
  rw [W5_unfold]; after_results_simp <;> rfl

/-- The destination norm as a column. -/
theorem W5_v19 : W5 m ρ c (Proc.devRef .tc main_v19) = normCol (m ((c : Thread nD τ).loc main_arg6)) :=
  (s4_v19 (W4 m ρ c)).trans (by rw [W4_v18]; rfl)
/-- The weights in bfloat16 are the weights. -/
theorem W5_v20 : W5 m ρ c (Proc.devRef .tc main_v20) = (m ((c : Thread nD τ).loc main_arg1)) :=
  (s4_v20 (W4 m ρ c)).trans (W4_arg1 m ρ c)
/-- The source norm as a column. -/
theorem W5_v9 : W5 m ρ c (Proc.devRef .tc main_v9) = normCol (m ((c : Thread nD τ).loc main_arg5)) := by
  refine Eq.trans ?_ (W3_v9 m ρ c)
  show after hostOps0_4 (after hostOps0_3 (W3 m ρ c)) (Proc.devRef .tc main_v9) = _
  after_results_simp <;> rfl

/-! ## The first launch's exit -/

/-- The first dense layer. -/
theorem W6_v21 : W6 m ρ c (Proc.devRef .tc main_v21) = Cert.ScaledDense.spec (m ((c : Thread nD τ).loc main_arg0)) (normCol (m ((c : Thread nD τ).loc main_arg5))) (m ((c : Thread nD τ).loc main_arg1)) := by
  refine (W6_arr m ρ c 3).trans ((arr0_eq (V5 m ρ) c).trans ?_)
  show Cert.ScaledDense.spec (W5 m ρ c (Proc.devRef .tc main_arg0)) (W5 m ρ c (Proc.devRef .tc main_v9)) (W5 m ρ c (Proc.devRef .tc main_v20)) = _
  rw [W5_arg0, W5_v9, W5_v20]
/-- An input array of the launch is as it was entered. -/
theorem W6_v9 : W6 m ρ c (Proc.devRef .tc main_v9) = normCol (m ((c : Thread nD τ).loc main_arg5)) :=
  ((W6_arr m ρ c 1).trans (((dat0 (V5 m ρ) c).arrAt_in 1 rfl _).trans (A_eq0 (V5 m ρ) c 1))).trans (W5_v9 m ρ c)
theorem W6_v19 : W6 m ρ c (Proc.devRef .tc main_v19) = normCol (m ((c : Thread nD τ).loc main_arg6)) := (W6_of_ne m ρ c main_v19 (by decide)).trans (W5_v19 m ρ c)
theorem W6_arg2 : W6 m ρ c (Proc.devRef .tc main_arg2) = (m ((c : Thread nD τ).loc main_arg2)) := (W6_of_ne m ρ c main_arg2 (by decide)).trans (W5_arg2 m ρ c)
theorem W6_arg3 : W6 m ρ c (Proc.devRef .tc main_arg3) = (m ((c : Thread nD τ).loc main_arg3)) := (W6_of_ne m ρ c main_arg3 (by decide)).trans (W5_arg3 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)

/-! ## The middle stretches: what the second launch is entered with -/

theorem W7_v36 : W7 m ρ c (Proc.devRef .tc main_v36) = pre128 (Cert.ScaledDense.spec (m ((c : Thread nD τ).loc main_arg0)) (normCol (m ((c : Thread nD τ).loc main_arg5))) (m ((c : Thread nD τ).loc main_arg1))) (normCol (m ((c : Thread nD τ).loc main_arg6))) (m ((c : Thread nD τ).loc main_arg2)) (m ((c : Thread nD τ).loc main_arg5)) (m ((c : Thread nD τ).loc main_arg6)) :=
  (s5_v36 (W6 m ρ c)).trans (by rw [W6_v21, W6_v19, W6_arg2, W6_arg5, W6_arg6])
theorem W8_v37 : W8 m ρ c (Proc.devRef .tc main_v37) = mid (Cert.ScaledDense.spec (m ((c : Thread nD τ).loc main_arg0)) (normCol (m ((c : Thread nD τ).loc main_arg5))) (m ((c : Thread nD τ).loc main_arg1))) (m ((c : Thread nD τ).loc main_arg2)) (m ((c : Thread nD τ).loc main_arg5)) (m ((c : Thread nD τ).loc main_arg6)) :=
  (s6_v37 (W7 m ρ c)).trans (by rw [W7_v36]; rfl)
theorem W8_arg3 : W8 m ρ c (Proc.devRef .tc main_arg3) = (m ((c : Thread nD τ).loc main_arg3)) := by
  refine Eq.trans ?_ (W6_arg3 m ρ c)
  show after hostOps1_1 (after hostOps1 (W6 m ρ c)) (Proc.devRef .tc main_arg3) = _
  after_results_simp <;> rfl
theorem W9_v37 : W9 m ρ c (Proc.devRef .tc main_v37) = mid (Cert.ScaledDense.spec (m ((c : Thread nD τ).loc main_arg0)) (normCol (m ((c : Thread nD τ).loc main_arg5))) (m ((c : Thread nD τ).loc main_arg1))) (m ((c : Thread nD τ).loc main_arg2)) (m ((c : Thread nD τ).loc main_arg5)) (m ((c : Thread nD τ).loc main_arg6)) := by
  refine Eq.trans ?_ (W8_v37 m ρ c)
  show after hostOps1_2 (W8 m ρ c) (Proc.devRef .tc main_v37) = _
  after_results_simp <;> rfl
/-- The weights in bfloat16 are the weights. -/
theorem W9_v38 : W9 m ρ c (Proc.devRef .tc main_v38) = (m ((c : Thread nD τ).loc main_arg3)) :=
  (s7_v38 (W8 m ρ c)).trans (W8_arg3 m ρ c)
theorem W9_v9 : W9 m ρ c (Proc.devRef .tc main_v9) = normCol (m ((c : Thread nD τ).loc main_arg5)) := by
  refine Eq.trans ?_ (W6_v9 m ρ c)
  show after hostOps1_2 (after hostOps1_1 (after hostOps1 (W6 m ρ c))) (Proc.devRef .tc main_v9) = _
  after_results_simp <;> rfl
theorem W9_v19 : W9 m ρ c (Proc.devRef .tc main_v19) = normCol (m ((c : Thread nD τ).loc main_arg6)) := by
  refine Eq.trans ?_ (W6_v19 m ρ c)
  show after hostOps1_2 (after hostOps1_1 (after hostOps1 (W6 m ρ c))) (Proc.devRef .tc main_v19) = _
  after_results_simp <;> rfl
theorem W9_arg4 : W9 m ρ c (Proc.devRef .tc main_arg4) = (m ((c : Thread nD τ).loc main_arg4)) := by
  refine Eq.trans ?_ (W6_arg4 m ρ c)
  show after hostOps1_2 (after hostOps1_1 (after hostOps1 (W6 m ρ c))) (Proc.devRef .tc main_arg4) = _
  after_results_simp <;> rfl
theorem W9_arg5 : W9 m ρ c (Proc.devRef .tc main_arg5) = (m ((c : Thread nD τ).loc main_arg5)) := by
  refine Eq.trans ?_ (W6_arg5 m ρ c)
  show after hostOps1_2 (after hostOps1_1 (after hostOps1 (W6 m ρ c))) (Proc.devRef .tc main_arg5) = _
  after_results_simp <;> rfl
theorem W9_arg6 : W9 m ρ c (Proc.devRef .tc main_arg6) = (m ((c : Thread nD τ).loc main_arg6)) := by
  refine Eq.trans ?_ (W6_arg6 m ρ c)
  show after hostOps1_2 (after hostOps1_1 (after hostOps1 (W6 m ρ c))) (Proc.devRef .tc main_arg6) = _
  after_results_simp <;> rfl

/-! ## The second launch's exit, and the last stretch -/

/-- The second dense layer. -/
theorem W10_v39 : W10 m ρ c (Proc.devRef .tc main_v39) = Cert.ScaledDense.spec (mid (Cert.ScaledDense.spec (m ((c : Thread nD τ).loc main_arg0)) (normCol (m ((c : Thread nD τ).loc main_arg5))) (m ((c : Thread nD τ).loc main_arg1))) (m ((c : Thread nD τ).loc main_arg2)) (m ((c : Thread nD τ).loc main_arg5)) (m ((c : Thread nD τ).loc main_arg6))) (normCol (m ((c : Thread nD τ).loc main_arg5))) (m ((c : Thread nD τ).loc main_arg3)) := by
  refine (W10_arr m ρ c 3).trans ((arr1_eq (V9 m ρ) c).trans ?_)
  show Cert.ScaledDense.spec (W9 m ρ c (Proc.devRef .tc main_v37)) (W9 m ρ c (Proc.devRef .tc main_v9)) (W9 m ρ c (Proc.devRef .tc main_v38)) = _
  rw [W9_v37, W9_v9, W9_v38]
theorem W10_v19 : W10 m ρ c (Proc.devRef .tc main_v19) = normCol (m ((c : Thread nD τ).loc main_arg6)) := (W10_of_ne m ρ c main_v19 (by decide)).trans (W9_v19 m ρ c)
theorem W10_arg4 : W10 m ρ c (Proc.devRef .tc main_arg4) = (m ((c : Thread nD τ).loc main_arg4)) := (W10_of_ne m ρ c main_arg4 (by decide)).trans (W9_arg4 m ρ c)
theorem W10_arg5 : W10 m ρ c (Proc.devRef .tc main_arg5) = (m ((c : Thread nD τ).loc main_arg5)) := (W10_of_ne m ρ c main_arg5 (by decide)).trans (W9_arg5 m ρ c)
theorem W10_arg6 : W10 m ρ c (Proc.devRef .tc main_arg6) = (m ((c : Thread nD τ).loc main_arg6)) := (W10_of_ne m ρ c main_arg6 (by decide)).trans (W9_arg6 m ρ c)

/-- THE RESULT: the last boundary's contents at the result buffer are the network of the arguments as launched. -/
theorem result_eq : W11 m ρ c (Proc.devRef .tc main_v54) = value m c :=
  (s8_v54 (W10 m ρ c)).trans (by rw [W10_v39, W10_v19, W10_arg4, W10_arg5, W10_arg6]; rfl)

end Cert.KernelIdeal.Conv

end
-- ==== Proof.RefRun.lean ====
/-
  The reference program's run.

  The reference is a straight line of 81 host operations: the two degree counts and their inverse square roots, then
  twice a dense layer (rows scaled by the source norm, times the weights), a gather of its rows along the edges, a
  scatter-add into the destination rows, a scale by the destination norm and a bias, with a rectifier between the two
  layers.  A straight line of host operations always terminates, and leaves in every buffer the fold of the
  operations' results over the launch contents (each operation rewrites its own result buffer from the buffers it
  reads and leaves the rest).  That is all this module states; the term the fold computes at the result buffer is
  read off in the module that compares it with the kernel's.
-/
import proofs.«148766_j266287972964_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's 81 host operations, in order; the three operations of each called function (the two `where`s and the
    rectifier) stand in the call's place, over the call's own buffers. -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg5 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v7) (TRef.of (T := ⟨S50000, .f32⟩) main_call0_v1) (TRef.of (T := ⟨S50000, .f32⟩) main_v8) select,
    nullary main_cst_4 (constant S_ .f32 0x3F800000#32),
    unary main_cst_4 main_v9 (broadcastInDim S800000 ![] bcast_S_S800000 : (⟨S_, .f32⟩ : BufTy).Contents (Elt F) → (⟨S800000, .f32⟩ : BufTy).Contents (Elt F)),
    nullary main_cst_5 (constant S_ .f32 0x00000000#32),
    unary main_cst_5 main_v10 (broadcastInDim S50000 ![] bcast_S_S50000 : (⟨S_, .f32⟩ : BufTy).Contents (Elt F) → (⟨S50000, .f32⟩ : BufTy).Contents (Elt F)),
    unary main_arg6 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_6 (constant S_ .f32 0x00000000#32),
    unary main_cst_6 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    nullary main_cst_7 (constant S_ .f32 0xBF000000#32),
    unary main_cst_7 main_v15 (broadcastInDim S50000 ![] bcast_S_S50000 : (⟨S_, .f32⟩ : BufTy).Contents (Elt F) → (⟨S50000, .f32⟩ : BufTy).Contents (Elt F)),
    binary main_v12 main_v15 main_v16 (Host.powf : (⟨S50000, .f32⟩ : BufTy).Contents (Elt F) → (⟨S50000, .f32⟩ : BufTy).Contents (Elt F) → (⟨S50000, .f32⟩ : BufTy).Contents (Elt F)),
    nullary main_cst_8 (constant S_ .f32 0x00000000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v16) (TRef.of (T := ⟨S50000, .f32⟩) main_call1_v1) (TRef.of (T := ⟨S50000, .f32⟩) main_v17) select,
    unary main_v8 main_v18 (broadcastInDim S50000x1 ![0] bcast_S50000_S50000x1_0 : (⟨S50000, .f32⟩ : BufTy).Contents (Elt F) → (⟨S50000x1, .f32⟩ : BufTy).Contents (Elt F)),
    unary main_v18 main_v19 (broadcastInDim S50000x512 ![0, 1] bcast_S50000x1_S50000x512_0_1 : (⟨S50000x1, .f32⟩ : BufTy).Contents (Elt F) → (⟨S50000x512, .f32⟩ : BufTy).Contents (Elt F)),
    binary main_arg0 main_v19 main_v20 (mulf : (⟨S50000x512, .f32⟩ : BufTy).Contents (Elt F) → (⟨S50000x512, .f32⟩ : BufTy).Contents (Elt F) → (⟨S50000x512, .f32⟩ : BufTy).Contents (Elt F)),
    binary main_v20 main_arg1 main_v21 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c (constantI S_ 32 0#32),
    unary main_c main_v22 (broadcastInDim S800000 ![] bcast_S_S800000 : (⟨S_, .i32⟩ : BufTy).Contents (Elt F) → (⟨S800000, .i32⟩ : BufTy).Contents (Elt F)),
    binary main_arg5 main_v22 main_v23 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v24 (broadcastInDim S800000 ![] bcast_S_S800000 : (⟨S_, .i32⟩ : BufTy).Contents (Elt F) → (⟨S800000, .i32⟩ : BufTy).Contents (Elt F)),
    binary main_arg5 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg5 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v29 (broadcastInDim S50000x128 ![] bcast_S_S50000x128 : (⟨S_, .f32⟩ : BufTy).Contents (Elt F) → (⟨S50000x128, .f32⟩ : BufTy).Contents (Elt F)),
    unary main_arg6 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v17 main_v32 (broadcastInDim S50000x1 ![0] bcast_S50000_S50000x1_0 : (⟨S50000, .f32⟩ : BufTy).Contents (Elt F) → (⟨S50000x1, .f32⟩ : BufTy).Contents (Elt F)),
    unary main_v32 main_v33 (broadcastInDim S50000x128 ![0, 1] bcast_S50000x1_S50000x128_0_1 : (⟨S50000x1, .f32⟩ : BufTy).Contents (Elt F) → (⟨S50000x128, .f32⟩ : BufTy).Contents (Elt F)),
    binary main_v31 main_v33 main_v34 (mulf : (⟨S50000x128, .f32⟩ : BufTy).Contents (Elt F) → (⟨S50000x128, .f32⟩ : BufTy).Contents (Elt F) → (⟨S50000x128, .f32⟩ : BufTy).Contents (Elt F)),
    unary main_arg2 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v37) (TRef.of (T := ⟨S50000x128, .f32⟩) main_call2_v0) (TRef.of (T := ⟨S50000x128, .f32⟩) main_v38) maximumf,
    unary main_v8 main_v39 (broadcastInDim S50000x1 ![0] bcast_S50000_S50000x1_0 : (⟨S50000, .f32⟩ : BufTy).Contents (Elt F) → (⟨S50000x1, .f32⟩ : BufTy).Contents (Elt F)),
    unary main_v39 main_v40 (broadcastInDim S50000x128 ![0, 1] bcast_S50000x1_S50000x128_0_1 : (⟨S50000x1, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    binary main_v41 main_arg3 main_v42 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_11 (constantI S_ 32 0#32),
    unary main_c_11 main_v43 (broadcastInDim S800000 ![] bcast_S_S800000 : (⟨S_, .i32⟩ : BufTy).Contents (Elt F) → (⟨S800000, .i32⟩ : BufTy).Contents (Elt F)),
    binary main_arg5 main_v43 main_v44 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v45 (broadcastInDim S800000 ![] bcast_S_S800000 : (⟨S_, .i32⟩ : BufTy).Contents (Elt F) → (⟨S800000, .i32⟩ : BufTy).Contents (Elt F)),
    binary main_arg5 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg5 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v42 main_v48 main_v49 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_13 (constant S_ .f32 0x00000000#32),
    unary main_cst_13 main_v50 (broadcastInDim S50000x40 ![] bcast_S_S50000x40 : (⟨S_, .f32⟩ : BufTy).Contents (Elt F) → (⟨S50000x40, .f32⟩ : BufTy).Contents (Elt F)),
    unary main_arg6 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_v17 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x40 ![0, 1] bcast_S50000x1_S50000x40_0_1 : (⟨S50000x1, .f32⟩ : BufTy).Contents (Elt F) → (⟨S50000x40, .f32⟩ : BufTy).Contents (Elt F)),
    binary main_v52 main_v54 main_v55 (mulf : (⟨S50000x40, .f32⟩ : BufTy).Contents (Elt F) → (⟨S50000x40, .f32⟩ : BufTy).Contents (Elt F) → (⟨S50000x40, .f32⟩ : BufTy).Contents (Elt F)),
    unary main_arg4 main_v56 (broadcastInDim S1x40 ![1] bcast_S40_S1x40_1 : (⟨S40, .f32⟩ : BufTy).Contents (Elt F) → (⟨S1x40, .f32⟩ : BufTy).Contents (Elt F)),
    unary main_v56 main_v57 (broadcastInDim S50000x40 ![0, 1] bcast_S1x40_S50000x40_0_1 : (⟨S1x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

/-- Every weakly fair execution of the reference terminates, nothing faulting, with every buffer at the fold of the 81
    operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HostRun

end
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.RefValue.lean ====
/-
  The value the reference returns.

  The reference's 81 operations fall into nine stretches: the source degree with its comparison and power, the first
  `where`, the same two for the destination, the first dense step on the host (the features times the source norm
  laid over the columns, then a dot_general with the weights), the aggregation along the edges with its scale and
  bias, the rectifier, the second dense step, and the last aggregation.  The fold of a concatenation is the fold of
  the second part over the fold of the first, so the buffer contents pass through nine boundaries; each stretch is
  recognised as one of the functions the kernel program's host side is built from, and each dense step on the host
  as the dense layer (rows scaled, then the product).  Followed forward from the launch contents, the result buffer
  holds `gcn` of the seven argument arrays as launched.
-/
import proofs.«148766_j266287972964_1_alg».proof.Proof.RefRun
import proofs.«148766_j266287972964_1_alg».proof.Proof.Conv
import proofs.«148766_j266287972964_1_alg».proof.Proof.LibFoldAppend

set_option maxRecDepth 16384

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.KernelIdeal.Conv (positive rootInv zero choose column invSqrtDeg normCol pre128 relu post40 mid fin gcn)

/-! ## The nine stretches -/

section Cut

variable {F : FTy → Type} [FloatOps F]

abbrev r0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg5 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]
abbrev r1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v7) (TRef.of (T := ⟨S50000, .f32⟩) main_call0_v1) (TRef.of (T := ⟨S50000, .f32⟩) main_v8) select ]
abbrev r2 : List (HloOp τ sig (Elt F)) :=
  [ nullary main_cst_4 (constant S_ .f32 0x3F800000#32),
    unary main_cst_4 main_v9 (broadcastInDim S800000 ![] bcast_S_S800000 : (⟨S_, .f32⟩ : BufTy).Contents (Elt F) → (⟨S800000, .f32⟩ : BufTy).Contents (Elt F)),
    nullary main_cst_5 (constant S_ .f32 0x00000000#32),
    unary main_cst_5 main_v10 (broadcastInDim S50000 ![] bcast_S_S50000 : (⟨S_, .f32⟩ : BufTy).Contents (Elt F) → (⟨S50000, .f32⟩ : BufTy).Contents (Elt F)),
    unary main_arg6 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_6 (constant S_ .f32 0x00000000#32),
    unary main_cst_6 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    nullary main_cst_7 (constant S_ .f32 0xBF000000#32),
    unary main_cst_7 main_v15 (broadcastInDim S50000 ![] bcast_S_S50000 : (⟨S_, .f32⟩ : BufTy).Contents (Elt F) → (⟨S50000, .f32⟩ : BufTy).Contents (Elt F)),
    binary main_v12 main_v15 main_v16 (Host.powf : (⟨S50000, .f32⟩ : BufTy).Contents (Elt F) → (⟨S50000, .f32⟩ : BufTy).Contents (Elt F) → (⟨S50000, .f32⟩ : BufTy).Contents (Elt F)),
    nullary main_cst_8 (constant S_ .f32 0x00000000#32) ]
abbrev r3 : List (HloOp τ sig (Elt F)) :=
  [ TRef.unary (TRef.of (T := ⟨S_, .f32⟩) main_cst_8) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v16) (TRef.of (T := ⟨S50000, .f32⟩) main_call1_v1) (TRef.of (T := ⟨S50000, .f32⟩) main_v17) select ]
abbrev r4 : List (HloOp τ sig (Elt F)) :=
  [ unary main_v8 main_v18 (broadcastInDim S50000x1 ![0] bcast_S50000_S50000x1_0 : (⟨S50000, .f32⟩ : BufTy).Contents (Elt F) → (⟨S50000x1, .f32⟩ : BufTy).Contents (Elt F)),
    unary main_v18 main_v19 (broadcastInDim S50000x512 ![0, 1] bcast_S50000x1_S50000x512_0_1 : (⟨S50000x1, .f32⟩ : BufTy).Contents (Elt F) → (⟨S50000x512, .f32⟩ : BufTy).Contents (Elt F)),
    binary main_arg0 main_v19 main_v20 (mulf : (⟨S50000x512, .f32⟩ : BufTy).Contents (Elt F) → (⟨S50000x512, .f32⟩ : BufTy).Contents (Elt F) → (⟨S50000x512, .f32⟩ : BufTy).Contents (Elt F)),
    binary main_v20 main_arg1 main_v21 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)) ]
abbrev r5 : List (HloOp τ sig (Elt F)) :=
  [ nullary main_c (constantI S_ 32 0#32),
    unary main_c main_v22 (broadcastInDim S800000 ![] bcast_S_S800000 : (⟨S_, .i32⟩ : BufTy).Contents (Elt F) → (⟨S800000, .i32⟩ : BufTy).Contents (Elt F)),
    binary main_arg5 main_v22 main_v23 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v24 (broadcastInDim S800000 ![] bcast_S_S800000 : (⟨S_, .i32⟩ : BufTy).Contents (Elt F) → (⟨S800000, .i32⟩ : BufTy).Contents (Elt F)),
    binary main_arg5 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg5 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v29 (broadcastInDim S50000x128 ![] bcast_S_S50000x128 : (⟨S_, .f32⟩ : BufTy).Contents (Elt F) → (⟨S50000x128, .f32⟩ : BufTy).Contents (Elt F)),
    unary main_arg6 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v17 main_v32 (broadcastInDim S50000x1 ![0] bcast_S50000_S50000x1_0 : (⟨S50000, .f32⟩ : BufTy).Contents (Elt F) → (⟨S50000x1, .f32⟩ : BufTy).Contents (Elt F)),
    unary main_v32 main_v33 (broadcastInDim S50000x128 ![0, 1] bcast_S50000x1_S50000x128_0_1 : (⟨S50000x1, .f32⟩ : BufTy).Contents (Elt F) → (⟨S50000x128, .f32⟩ : BufTy).Contents (Elt F)),
    binary main_v31 main_v33 main_v34 (mulf : (⟨S50000x128, .f32⟩ : BufTy).Contents (Elt F) → (⟨S50000x128, .f32⟩ : BufTy).Contents (Elt F) → (⟨S50000x128, .f32⟩ : BufTy).Contents (Elt F)),
    unary main_arg2 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)) ]
abbrev r6 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v37) (TRef.of (T := ⟨S50000x128, .f32⟩) main_call2_v0) (TRef.of (T := ⟨S50000x128, .f32⟩) main_v38) maximumf ]
abbrev r7 : List (HloOp τ sig (Elt F)) :=
  [ unary main_v8 main_v39 (broadcastInDim S50000x1 ![0] bcast_S50000_S50000x1_0 : (⟨S50000, .f32⟩ : BufTy).Contents (Elt F) → (⟨S50000x1, .f32⟩ : BufTy).Contents (Elt F)),
    unary main_v39 main_v40 (broadcastInDim S50000x128 ![0, 1] bcast_S50000x1_S50000x128_0_1 : (⟨S50000x1, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    binary main_v41 main_arg3 main_v42 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
abbrev r8 : List (HloOp τ sig (Elt F)) :=
  [ nullary main_c_11 (constantI S_ 32 0#32),
    unary main_c_11 main_v43 (broadcastInDim S800000 ![] bcast_S_S800000 : (⟨S_, .i32⟩ : BufTy).Contents (Elt F) → (⟨S800000, .i32⟩ : BufTy).Contents (Elt F)),
    binary main_arg5 main_v43 main_v44 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v45 (broadcastInDim S800000 ![] bcast_S_S800000 : (⟨S_, .i32⟩ : BufTy).Contents (Elt F) → (⟨S800000, .i32⟩ : BufTy).Contents (Elt F)),
    binary main_arg5 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg5 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v42 main_v48 main_v49 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_13 (constant S_ .f32 0x00000000#32),
    unary main_cst_13 main_v50 (broadcastInDim S50000x40 ![] bcast_S_S50000x40 : (⟨S_, .f32⟩ : BufTy).Contents (Elt F) → (⟨S50000x40, .f32⟩ : BufTy).Contents (Elt F)),
    unary main_arg6 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_v17 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x40 ![0, 1] bcast_S50000x1_S50000x40_0_1 : (⟨S50000x1, .f32⟩ : BufTy).Contents (Elt F) → (⟨S50000x40, .f32⟩ : BufTy).Contents (Elt F)),
    binary main_v52 main_v54 main_v55 (mulf : (⟨S50000x40, .f32⟩ : BufTy).Contents (Elt F) → (⟨S50000x40, .f32⟩ : BufTy).Contents (Elt F) → (⟨S50000x40, .f32⟩ : BufTy).Contents (Elt F)),
    unary main_arg4 main_v56 (broadcastInDim S1x40 ![1] bcast_S40_S1x40_1 : (⟨S40, .f32⟩ : BufTy).Contents (Elt F) → (⟨S1x40, .f32⟩ : BufTy).Contents (Elt F)),
    unary main_v56 main_v57 (broadcastInDim S50000x40 ![0, 1] bcast_S1x40_S50000x40_0_1 : (⟨S1x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)) ]

/-- The operations are the nine stretches in order. -/
theorem ops_split : (ops : List (HloOp τ sig (Elt F))) = r0 ++ (r1 ++ (r2 ++ (r3 ++ (r4 ++ (r5 ++ (r6 ++ (r7 ++ r8))))))) := rfl

end Cut

/-! ## One stretch at a time, from any contents -/

section Stretches

variable (Wv : Valuation τ sig (Elt Ideal))

theorem t0_v5 : after r0 Wv (Proc.devRef .tc main_v5) = positive (Wv (Proc.devRef .tc main_arg5)) := by
  after_results_simp <;> rfl
theorem t0_v7 : after r0 Wv (Proc.devRef .tc main_v7) = rootInv (Wv (Proc.devRef .tc main_arg5)) := by
  after_results_simp <;> rfl
theorem t0_cst3 : after r0 Wv (Proc.devRef .tc main_cst_3) = zero := by
  after_results_simp <;> rfl
theorem t1_v8 : after r1 Wv (Proc.devRef .tc main_v8) = choose (Wv (Proc.devRef .tc main_v5)) (Wv (Proc.devRef .tc main_v7)) (Wv (Proc.devRef .tc main_cst_3)) := by
  after_results_simp <;> rfl
theorem t2_v14 : after r2 Wv (Proc.devRef .tc main_v14) = positive (Wv (Proc.devRef .tc main_arg6)) := by
  after_results_simp <;> rfl
theorem t2_v16 : after r2 Wv (Proc.devRef .tc main_v16) = rootInv (Wv (Proc.devRef .tc main_arg6)) := by
  after_results_simp <;> rfl
theorem t2_cst8 : after r2 Wv (Proc.devRef .tc main_cst_8) = zero := by
  after_results_simp <;> rfl
theorem t3_v17 : after r3 Wv (Proc.devRef .tc main_v17) = choose (Wv (Proc.devRef .tc main_v14)) (Wv (Proc.devRef .tc main_v16)) (Wv (Proc.devRef .tc main_cst_8)) := by
  after_results_simp <;> rfl
/-- The first dense step on the host is the dense layer. -/
theorem t4_v21 : after r4 Wv (Proc.devRef .tc main_v21)
    = Cert.ScaledDense.spec (Wv (Proc.devRef .tc main_arg0)) (column (Wv (Proc.devRef .tc main_v8))) (Wv (Proc.devRef .tc main_arg1)) := by
  after_results_simp
  exact Cert.ScaledDense.host_eq_spec dot_S50000x512_S512x128_S50000x128_1_0_0_1_n_n rfl rfl rfl rfl rfl rfl _ _ _ _
theorem t5_v37 : after r5 Wv (Proc.devRef .tc main_v37) = pre128 (Wv (Proc.devRef .tc main_v21)) (column (Wv (Proc.devRef .tc main_v17))) (Wv (Proc.devRef .tc main_arg2)) (Wv (Proc.devRef .tc main_arg5)) (Wv (Proc.devRef .tc main_arg6)) := by
  after_results_simp <;> rfl
theorem t6_v38 : after r6 Wv (Proc.devRef .tc main_v38) = relu (Wv (Proc.devRef .tc main_v37)) := by
  after_results_simp <;> rfl
/-- The second dense step on the host is the dense layer. -/
theorem t7_v42 : after r7 Wv (Proc.devRef .tc main_v42)
    = Cert.ScaledDense.spec (Wv (Proc.devRef .tc main_v38)) (column (Wv (Proc.devRef .tc main_v8))) (Wv (Proc.devRef .tc main_arg3)) := by
  after_results_simp
  exact Cert.ScaledDense.host_eq_spec dot_S50000x128_S128x40_S50000x40_1_0_0_1_n_n rfl rfl rfl rfl rfl rfl _ _ _ _
theorem t8_v58 : after r8 Wv (Proc.devRef .tc main_v58) = post40 (Wv (Proc.devRef .tc main_v42)) (column (Wv (Proc.devRef .tc main_v17))) (Wv (Proc.devRef .tc main_arg4)) (Wv (Proc.devRef .tc main_arg5)) (Wv (Proc.devRef .tc main_arg6)) := by
  after_results_simp <;> rfl

end Stretches

/-! ## The boundaries, forward from the launch contents -/

variable (m : (ℓ : Loc nD τ sig) → Buf (Elt Ideal) ℓ) (c : Dev nD)

/-- The buffer contents at launch and after each stretch. -/
abbrev A0 : Valuation τ sig (Elt Ideal) := launchContents m c
abbrev A1 : Valuation τ sig (Elt Ideal) := after r0 (A0 m c)
abbrev A2 : Valuation τ sig (Elt Ideal) := after r1 (A1 m c)
abbrev A3 : Valuation τ sig (Elt Ideal) := after r2 (A2 m c)
abbrev A4 : Valuation τ sig (Elt Ideal) := after r3 (A3 m c)
abbrev A5 : Valuation τ sig (Elt Ideal) := after r4 (A4 m c)
abbrev A6 : Valuation τ sig (Elt Ideal) := after r5 (A5 m c)
abbrev A7 : Valuation τ sig (Elt Ideal) := after r6 (A6 m c)
abbrev A8 : Valuation τ sig (Elt Ideal) := after r7 (A7 m c)
abbrev A9 : Valuation τ sig (Elt Ideal) := after r8 (A8 m c)

/-- The fold of all 81 operations is the last boundary. -/
theorem after_ops : after ops (launchContents m c) = A9 m c := by
  rw [ops_split]; simp only [Cert.FoldAppend.after_append]

theorem A1_v5 : A1 m c (Proc.devRef .tc main_v5) = positive (m ((c.tc : Thread nD τ).loc main_arg5)) := t0_v5 (A0 m c)
theorem A1_v7 : A1 m c (Proc.devRef .tc main_v7) = rootInv (m ((c.tc : Thread nD τ).loc main_arg5)) := t0_v7 (A0 m c)
theorem A1_cst3 : A1 m c (Proc.devRef .tc main_cst_3) = zero := t0_cst3 (A0 m c)
theorem A2_v8 : A2 m c (Proc.devRef .tc main_v8) = invSqrtDeg (m ((c.tc : Thread nD τ).loc main_arg5)) :=
  (t1_v8 (A1 m c)).trans (by rw [A1_v5, A1_v7, A1_cst3]; rfl)
theorem A2_arg6 : A2 m c (Proc.devRef .tc main_arg6) = (m ((c.tc : Thread nD τ).loc main_arg6)) := by
  show after r1 (after r0 (A0 m c)) (Proc.devRef .tc main_arg6) = _
  after_results_simp <;> rfl
theorem A3_v14 : A3 m c (Proc.devRef .tc main_v14) = positive (m ((c.tc : Thread nD τ).loc main_arg6)) := (t2_v14 (A2 m c)).trans (by rw [A2_arg6])
theorem A3_v16 : A3 m c (Proc.devRef .tc main_v16) = rootInv (m ((c.tc : Thread nD τ).loc main_arg6)) := (t2_v16 (A2 m c)).trans (by rw [A2_arg6])
theorem A3_cst8 : A3 m c (Proc.devRef .tc main_cst_8) = zero := t2_cst8 (A2 m c)
theorem A4_v17 : A4 m c (Proc.devRef .tc main_v17) = invSqrtDeg (m ((c.tc : Thread nD τ).loc main_arg6)) :=
  (t3_v17 (A3 m c)).trans (by rw [A3_v14, A3_v16, A3_cst8]; rfl)
theorem A4_v8 : A4 m c (Proc.devRef .tc main_v8) = invSqrtDeg (m ((c.tc : Thread nD τ).loc main_arg5)) := by
  refine Eq.trans ?_ (A2_v8 m c)
  show after r3 (after r2 (A2 m c)) (Proc.devRef .tc main_v8) = _
  after_results_simp <;> rfl
theorem A4_arg0 : A4 m c (Proc.devRef .tc main_arg0) = (m ((c.tc : Thread nD τ).loc main_arg0)) := by
  show after r3 (after r2 (after r1 (after r0 (A0 m c)))) (Proc.devRef .tc main_arg0) = _
  after_results_simp <;> rfl
theorem A4_arg1 : A4 m c (Proc.devRef .tc main_arg1) = (m ((c.tc : Thread nD τ).loc main_arg1)) := by
  show after r3 (after r2 (after r1 (after r0 (A0 m c)))) (Proc.devRef .tc main_arg1) = _
  after_results_simp <;> rfl
/-- The first dense layer. -/
theorem A5_v21 : A5 m c (Proc.devRef .tc main_v21) = Cert.ScaledDense.spec (m ((c.tc : Thread nD τ).loc main_arg0)) (normCol (m ((c.tc : Thread nD τ).loc main_arg5))) (m ((c.tc : Thread nD τ).loc main_arg1)) :=
  (t4_v21 (A4 m c)).trans (by rw [A4_arg0, A4_v8, A4_arg1]; rfl)
theorem A5_v17 : A5 m c (Proc.devRef .tc main_v17) = invSqrtDeg (m ((c.tc : Thread nD τ).loc main_arg6)) := by
  refine Eq.trans ?_ (A4_v17 m c)
  show after r4 (A4 m c) (Proc.devRef .tc main_v17) = _
  after_results_simp <;> rfl
theorem A5_arg2 : A5 m c (Proc.devRef .tc main_arg2) = (m ((c.tc : Thread nD τ).loc main_arg2)) := by
  show after r4 (after r3 (after r2 (after r1 (after r0 (A0 m c))))) (Proc.devRef .tc main_arg2) = _
  after_results_simp <;> rfl
theorem A5_arg5 : A5 m c (Proc.devRef .tc main_arg5) = (m ((c.tc : Thread nD τ).loc main_arg5)) := by
  show after r4 (after r3 (after r2 (after r1 (after r0 (A0 m c))))) (Proc.devRef .tc main_arg5) = _
  after_results_simp <;> rfl
theorem A5_arg6 : A5 m c (Proc.devRef .tc main_arg6) = (m ((c.tc : Thread nD τ).loc main_arg6)) := by
  show after r4 (after r3 (after r2 (after r1 (after r0 (A0 m c))))) (Proc.devRef .tc main_arg6) = _
  after_results_simp <;> rfl
theorem A6_v37 : A6 m c (Proc.devRef .tc main_v37) = pre128 (Cert.ScaledDense.spec (m ((c.tc : Thread nD τ).loc main_arg0)) (normCol (m ((c.tc : Thread nD τ).loc main_arg5))) (m ((c.tc : Thread nD τ).loc main_arg1))) (normCol (m ((c.tc : Thread nD τ).loc main_arg6))) (m ((c.tc : Thread nD τ).loc main_arg2)) (m ((c.tc : Thread nD τ).loc main_arg5)) (m ((c.tc : Thread nD τ).loc main_arg6)) :=
  (t5_v37 (A5 m c)).trans (by rw [A5_v21, A5_v17, A5_arg2, A5_arg5, A5_arg6]; rfl)
theorem A7_v38 : A7 m c (Proc.devRef .tc main_v38) = mid (Cert.ScaledDense.spec (m ((c.tc : Thread nD τ).loc main_arg0)) (normCol (m ((c.tc : Thread nD τ).loc main_arg5))) (m ((c.tc : Thread nD τ).loc main_arg1))) (m ((c.tc : Thread nD τ).loc main_arg2)) (m ((c.tc : Thread nD τ).loc main_arg5)) (m ((c.tc : Thread nD τ).loc main_arg6)) :=
  (t6_v38 (A6 m c)).trans (by rw [A6_v37]; rfl)
theorem A7_v8 : A7 m c (Proc.devRef .tc main_v8) = invSqrtDeg (m ((c.tc : Thread nD τ).loc main_arg5)) := by
  refine Eq.trans ?_ (A4_v8 m c)
  show after r6 (after r5 (after r4 (A4 m c))) (Proc.devRef .tc main_v8) = _
  after_results_simp <;> rfl
theorem A7_arg3 : A7 m c (Proc.devRef .tc main_arg3) = (m ((c.tc : Thread nD τ).loc main_arg3)) := by
  show after r6 (after r5 (after r4 (after r3 (after r2 (after r1 (after r0 (A0 m c))))))) (Proc.devRef .tc main_arg3) = _
  after_results_simp <;> rfl
/-- The second dense layer. -/
theorem A8_v42 : A8 m c (Proc.devRef .tc main_v42) = Cert.ScaledDense.spec (mid (Cert.ScaledDense.spec (m ((c.tc : Thread nD τ).loc main_arg0)) (normCol (m ((c.tc : Thread nD τ).loc main_arg5))) (m ((c.tc : Thread nD τ).loc main_arg1))) (m ((c.tc : Thread nD τ).loc main_arg2)) (m ((c.tc : Thread nD τ).loc main_arg5)) (m ((c.tc : Thread nD τ).loc main_arg6))) (normCol (m ((c.tc : Thread nD τ).loc main_arg5))) (m ((c.tc : Thread nD τ).loc main_arg3)) :=
  (t7_v42 (A7 m c)).trans (by rw [A7_v38, A7_v8, A7_arg3]; rfl)
theorem A8_v17 : A8 m c (Proc.devRef .tc main_v17) = invSqrtDeg (m ((c.tc : Thread nD τ).loc main_arg6)) := by
  refine Eq.trans ?_ (A5_v17 m c)
  show after r7 (after r6 (after r5 (A5 m c))) (Proc.devRef .tc main_v17) = _
  after_results_simp <;> rfl
theorem A8_arg4 : A8 m c (Proc.devRef .tc main_arg4) = (m ((c.tc : Thread nD τ).loc main_arg4)) := by
  show after r7 (after r6 (after r5 (after r4 (after r3 (after r2 (after r1 (after r0 (A0 m c)))))))) (Proc.devRef .tc main_arg4) = _
  after_results_simp <;> rfl
theorem A8_arg5 : A8 m c (Proc.devRef .tc main_arg5) = (m ((c.tc : Thread nD τ).loc main_arg5)) := by
  show after r7 (after r6 (after r5 (after r4 (after r3 (after r2 (after r1 (after r0 (A0 m c)))))))) (Proc.devRef .tc main_arg5) = _
  after_results_simp <;> rfl
theorem A8_arg6 : A8 m c (Proc.devRef .tc main_arg6) = (m ((c.tc : Thread nD τ).loc main_arg6)) := by
  show after r7 (after r6 (after r5 (after r4 (after r3 (after r2 (after r1 (after r0 (A0 m c)))))))) (Proc.devRef .tc main_arg6) = _
  after_results_simp <;> rfl

/-- THE RESULT: the fold of the reference's operations at its result buffer is the network of the argument arrays as
    launched. -/
theorem result_eq :
    after ops (launchContents m c) (Proc.devRef .tc main_v58)
      = gcn (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [after_ops]
  exact (t8_v58 (A8 m c)).trans (by rw [A8_v42, A8_v17, A8_arg4, A8_arg5, A8_arg6]; rfl)

/-! ## The arguments end as launched: no operation writes an argument's buffer -/

theorem kept_arg0 : after ops (launchContents m c) (Proc.devRef .tc main_arg0) = (m ((c.tc : Thread nD τ).loc main_arg0)) := by
  after_results_simp <;> rfl
theorem kept_arg1 : after ops (launchContents m c) (Proc.devRef .tc main_arg1) = (m ((c.tc : Thread nD τ).loc main_arg1)) := by
  after_results_simp <;> rfl
theorem kept_arg2 : after ops (launchContents m c) (Proc.devRef .tc main_arg2) = (m ((c.tc : Thread nD τ).loc main_arg2)) := by
  after_results_simp <;> rfl
theorem kept_arg3 : after ops (launchContents m c) (Proc.devRef .tc main_arg3) = (m ((c.tc : Thread nD τ).loc main_arg3)) := by
  after_results_simp <;> rfl
theorem kept_arg4 : after ops (launchContents m c) (Proc.devRef .tc main_arg4) = (m ((c.tc : Thread nD τ).loc main_arg4)) := by
  after_results_simp <;> rfl
theorem kept_arg5 : after ops (launchContents m c) (Proc.devRef .tc main_arg5) = (m ((c.tc : Thread nD τ).loc main_arg5)) := by
  after_results_simp <;> rfl
theorem kept_arg6 : after ops (launchContents m c) (Proc.devRef .tc main_arg6) = (m ((c.tc : Thread nD τ).loc main_arg6)) := by
  after_results_simp <;> rfl

end Cert.ReferenceIdeal.HostRun

end
-- ==== Proof.lean ====
/-
  A two-layer graph convolution: the kernel program against its reference, on the extended reals.

  Both programs compute, from node features x, weights W1 W2, biases b1 b2 and the edge arrays src dst, the norms
  norm(src), norm(dst) (the inverse square roots of the node degrees, zero at isolated nodes) and then twice a layer
  "scale the rows by norm(src), multiply by the weights, sum the rows along the edges into their destinations, scale
  by norm(dst), add the bias", with max(., 0) between the layers.  The reference spells the dense step "scale, then
  multiply" on the host over all 50000 rows; the kernel program hands it to a launch that walks 25 blocks of 2000 rows,
  with the operands of the matrix product in bfloat16.  On the extended reals a change of float format is the identity
  and an entry of the dense step depends only on its own row, so a launch leaves exactly the host's dense step in its
  output array; everything else the two programs do is the same text.  Hence both end with `gcn` of their arguments
  in the result buffer (Proof/KernelValue.lean, Proof/RefValue.lean), and from memories that agree on the arguments
  the results are equal.  No finiteness of the inputs is used: no law of arithmetic is needed beyond what a sum over
  the columns already is.

  The three frames: the two kernel programs' are the generated ones; the reference is a straight line of host
  operations, which always runs to the end and writes no argument (Proof/RefRun.lean).  The idealization rewrote no
  operation, so there is nothing to preserve.
-/
import proofs.«148766_j266287972964_1_alg».proof.Defs
import proofs.«148766_j266287972964_1_alg».proof.Proof.Gen.Kernel
import proofs.«148766_j266287972964_1_alg».proof.Proof.Gen.Kernel.Skeleton
import proofs.«148766_j266287972964_1_alg».proof.Proof.Gen.Kernel.Launch
import proofs.«148766_j266287972964_1_alg».proof.Proof.Gen.Kernel.Points
import proofs.«148766_j266287972964_1_alg».proof.Proof.Gen.Kernel.Frame
import proofs.«148766_j266287972964_1_alg».proof.Proof.Gen.KernelIdeal
import proofs.«148766_j266287972964_1_alg».proof.Proof.Gen.KernelIdeal.Skeleton
import proofs.«148766_j266287972964_1_alg».proof.Proof.Gen.KernelIdeal.Launch
import proofs.«148766_j266287972964_1_alg».proof.Proof.Gen.KernelIdeal.Points
import proofs.«148766_j266287972964_1_alg».proof.Proof.Gen.KernelIdeal.Frame
import proofs.«148766_j266287972964_1_alg».proof.Proof.Gen.ReferenceIdeal
import proofs.«148766_j266287972964_1_alg».proof.Proof.Gen.Pre_finite_inputs
import proofs.«148766_j266287972964_1_alg».proof.Proof.NamedRun
import proofs.«148766_j266287972964_1_alg».proof.Proof.KernelValue
import proofs.«148766_j266287972964_1_alg».proof.Proof.RefRun
import proofs.«148766_j266287972964_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to the end with every buffer at the fold of its operations, and the fold writes no argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.HostRun.kept_arg0 m c),
     (h c Cert.ReferenceIdeal.main_arg1).trans (Cert.ReferenceIdeal.HostRun.kept_arg1 m c),
     (h c Cert.ReferenceIdeal.main_arg2).trans (Cert.ReferenceIdeal.HostRun.kept_arg2 m c),
     (h c Cert.ReferenceIdeal.main_arg3).trans (Cert.ReferenceIdeal.HostRun.kept_arg3 m c),
     (h c Cert.ReferenceIdeal.main_arg4).trans (Cert.ReferenceIdeal.HostRun.kept_arg4 m c),
     (h c Cert.ReferenceIdeal.main_arg5).trans (Cert.ReferenceIdeal.HostRun.kept_arg5 m c),
     (h c Cert.ReferenceIdeal.main_arg6).trans (Cert.ReferenceIdeal.HostRun.kept_arg6 m c)⟩)
    (Cert.ReferenceIdeal.HostRun.run (F := Ideal) m ρ)

/-- The idealization rewrote no operation. -/
theorem preserves : Cert.preserves_Kernel_KernelIdeal := trivial

/-- Both idealized programs end with the network of their arguments in the result buffer; the arguments agree. -/
theorem algebraic : Cert.algebraic_KernelIdeal_ReferenceIdeal := by
  intro m ρ m' ρ' _ hagree
  refine ⟨fun c => Cert.KernelIdeal.Conv.value m c, ?_, ?_⟩
  · exact (θ_run Cert.KernelIdeal.defs _ _).mono
      (fun r h c => ⟨(h c).1.trans (Cert.KernelIdeal.Conv.result_eq m ρ c), (h c).2⟩)
      (Cert.KernelIdeal.Conv.run_named (F := Ideal) m ρ)
  · refine (θ_run Cert.ReferenceIdeal.defs _ _).mono (fun r h c =>
      ⟨?_, (h c Cert.ReferenceIdeal.main_arg0).trans (Cert.ReferenceIdeal.HostRun.kept_arg0 m' c),
       (h c Cert.ReferenceIdeal.main_arg1).trans (Cert.ReferenceIdeal.HostRun.kept_arg1 m' c),
       (h c Cert.ReferenceIdeal.main_arg2).trans (Cert.ReferenceIdeal.HostRun.kept_arg2 m' c),
       (h c Cert.ReferenceIdeal.main_arg3).trans (Cert.ReferenceIdeal.HostRun.kept_arg3 m' c),
       (h c Cert.ReferenceIdeal.main_arg4).trans (Cert.ReferenceIdeal.HostRun.kept_arg4 m' c),
       (h c Cert.ReferenceIdeal.main_arg5).trans (Cert.ReferenceIdeal.HostRun.kept_arg5 m' c),
       (h c Cert.ReferenceIdeal.main_arg6).trans (Cert.ReferenceIdeal.HostRun.kept_arg6 m' c)⟩)
      (Cert.ReferenceIdeal.HostRun.run (F := Ideal) m' ρ')
    rw [h c Cert.ReferenceIdeal.main_v58, Cert.ReferenceIdeal.HostRun.result_eq m' c,
      (hagree c).1, (hagree c).2.1, (hagree c).2.2.1, (hagree c).2.2.2.1, (hagree c).2.2.2.2.1, (hagree c).2.2.2.2.2.1, (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
